-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S512x256 : Shape := ⟨2, ![512, 256]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S64x2048 .f32) (main_arg1 : FVec F S512x256 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S64x2048 : Shape := ⟨2, ![64, 2048]⟩
abbrev S512x256 : Shape := ⟨2, ![512, 256]⟩
abbrev S64x256x8x256 : Shape := ⟨4, ![64, 256, 8, 256]⟩
abbrev S32x256 : Shape := ⟨2, ![32, 256]⟩
abbrev S64x32x8x256 : Shape := ⟨4, ![64, 32, 8, 256]⟩
abbrev S1x32x1x256 : Shape := ⟨4, ![1, 32, 1, 256]⟩
abbrev S64x2048x256 : Shape := ⟨3, ![64, 2048, 256]⟩

abbrev nBuf : Space → Nat
  | .hbm => 4
  | .vmem => 4
  | .smem => 0
  | _ => 0

abbrev bufTy : (tb : Table) → Fin (tcTables nBuf tb) → BufTy
  | .hbm, ⟨0, _⟩ => ⟨S64x2048, .f32⟩
  | .hbm, ⟨1, _⟩ => ⟨S512x256, .f32⟩
  | .hbm, ⟨2, _⟩ => ⟨S64x256x8x256, .f32⟩
  | .hbm, ⟨3, _⟩ => ⟨S64x2048x256, .f32⟩
  | .local _ .vmem, ⟨0, _⟩ => ⟨S32x256, .f32⟩
  | .local _ .vmem, ⟨1, _⟩ => ⟨S32x256, .f32⟩
  | .local _ .vmem, ⟨2, _⟩ => ⟨S64x32x8x256, .f32⟩
  | .local _ .vmem, ⟨3, _⟩ => ⟨S64x32x8x256, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x256_S32x256_0_0 : ∀ a, (![0, 0] : Fin 2 → Nat) a + S32x256.size a ≤ S32x256.size a
  h_S32x256 : 0 < S32x256.numel
  shapeCasts_S32x256_S1x32x1x256 : S32x256.ShapeCasts S1x32x1x256
  shapeCasts_S1x32x1x256_S1x32x1x256 : S1x32x1x256.ShapeCasts S1x32x1x256
  broadcasts_S1x32x1x256_S64x32x8x256 : S1x32x1x256.Broadcasts S64x32x8x256
  inb_S64x32x8x256_S64x32x8x256_0_0_0_0 : ∀ a, (![0, 0, 0, 0] : Fin 4 → Nat) a + S64x32x8x256.size a ≤ S64x32x8x256.size a
  h_S64x32x8x256 : 0 < S64x32x8x256.numel
  shapeCasts_S64x256x8x256_S64x2048x256 : S64x256x8x256.ShapeCasts S64x2048x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S512x256.size a
  hwx0_0 : ∀ i : grid0.Coords, EltTy.bits .f32 = 32 ∨ (Rect.block (s := S512x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x8x256.size a ≤ S64x256x8x256.size a
  hwx0_1 : ∀ i : grid0.Coords, EltTy.bits .f32 = 32 ∨ (Rect.block (s := S64x256x8x256) S64x32x8x256.size (cc0_transform_1 i) (hinb0_1 i)).WholeWords (EltTy.packing .f32)

variable [Facts₀]

abbrev win0_0 : Pipeline.Window sig grid0 :=
  Pipeline.Window.ofSpec (Memref.whole main_arg1) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x32x8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2048 : Shape := ⟨2, ![64, 2048]⟩
abbrev S512x256 : Shape := ⟨2, ![512, 256]⟩
abbrev S2048 : Shape := ⟨1, ![2048]⟩
abbrev S_ : Shape := ⟨0, ![]⟩
abbrev S2048x1 : Shape := ⟨2, ![2048, 1]⟩
abbrev S2048x256 : Shape := ⟨2, ![2048, 256]⟩
abbrev S1x2048x256 : Shape := ⟨3, ![1, 2048, 256]⟩
abbrev S64x2048x256 : Shape := ⟨3, ![64, 2048, 256]⟩

abbrev nBuf : Space → Nat
  | .hbm => 32
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S512x256, .f32⟩
  | .hbm, ⟨2, _⟩ => ⟨S2048, .i32⟩
  | .hbm, ⟨3, _⟩ => ⟨S_, .i32⟩
  | .hbm, ⟨4, _⟩ => ⟨S_, .i32⟩
  | .hbm, ⟨5, _⟩ => ⟨S2048, .i32⟩
  | .hbm, ⟨6, _⟩ => ⟨S2048, .i32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S2048x256, .f32⟩
  | .hbm, ⟨30, _⟩ => ⟨S1x2048x256, .f32⟩
  | .hbm, ⟨31, _⟩ => ⟨S64x2048x256, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_c_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x256_S1x2048x256_1_2 : S2048x256.BroadcastsInDim S1x2048x256 (![1, 2] : Fin 2 → Fin S1x2048x256.rank)
  bcast_S1x2048x256_S64x2048x256_0_1_2 : S1x2048x256.BroadcastsInDim S64x2048x256 (![0, 1, 2] : Fin 3 → Fin S64x2048x256.rank)
  gather_S512x256_S2048x1_S2048x256_1_0_n_n_0_1_1256_wf : GatherDims.WF S512x256 S2048x1 S2048x256 [1] [0] [] [0] [] 1 ![1, 256]

variable [Facts₀]

def gather_S512x256_S2048x1_S2048x256_1_0_n_n_0_1_1256 : GatherDims S512x256 S2048x1 S2048x256 where
  offsetDims := [1]
  collapsedSliceDims := [0]
  operandBatchingDims := []
  startIndicesBatchingDims := []
  startIndexMap := [0]
  indexVectorDim := 1
  sliceSizes := ![1, 256]
  wf := gather_S512x256_S2048x1_S2048x256_1_0_n_n_0_1_1256_wf

class Facts : Prop extends Facts₀ where

variable [Facts]
-- ==== Proof.KernelTiles.lean ====
/-
  What the kernel's region writes: the table's first 256 rows, each repeated eight times, for every batch entry.

  The region's output is a `[64, 256, 8, 256]` array. At grid point `t` (of 8) the body loads the block of table rows
  `32 t … 32 t + 31`, views it as `[1, 32, 1, 256]`, broadcasts it to `[64, 32, 8, 256]` and stores that whole block, which
  is written back as rows `32 t … 32 t + 31` of the output's second axis. So entry `(b, R, a, e)` of the output is the
  table's entry `(R, e)`: the stored value at `(b, r, a, e)` of the block is the loaded block's `(r, e)`, the loaded
  block is the table read at row `32 t + r`, and the eight blocks tile the output's second axis.
-/
import proofs.«171506_j40252433498315_2_alg».proof.Proof.Gen.KernelIdeal.Frame
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- THE REGION'S OUTPUT as a function of the table: entry `(b, R, a, e)` is the table's `(R, e)`. -/
def tiled {α : Type} (E : (⟨2, ![512, 256]⟩ : Shape).Idx → α) : (⟨4, ![64, 256, 8, 256]⟩ : Shape).Idx → α :=
  fun i => E (ix2 (⟨(i 1).val, Nat.lt_of_lt_of_le ((i 1).isLt : (i 1).val < 256) (by decide)⟩ : Fin 512)
    (⟨(i 3).val, (i 3).isLt⟩ : Fin 256))

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The value the body stores, at `(b, r, a, e)`, is the loaded block's `(r, e)`: the view as `[1, 32, 1, 256]` keeps the
    row-major position, and the broadcast forgets the batch coordinate `b` and the repeat coordinate `a`. -/
theorem stored_apply (x0 : Vec F S32x256 .f32) (b : Fin 64) (r : Fin 32) (a : Fin 8) (e : Fin 256) :
    k0_pay1 x0 (ix4 b r a e) = x0 (ix2 r e) := by
  show broadcastTo S64x32x8x256 (shapeCast S1x32x1x256 (shapeCast S1x32x1x256 x0 shapeCasts_S32x256_S1x32x1x256)
    shapeCasts_S1x32x1x256_S1x32x1x256) broadcasts_S1x32x1x256_S64x32x8x256 (ix4 b r a e) = _
  refine (broadcastTo_apply _ _ (ix4 b r a e) (ix4 (0 : Fin 1) r (0 : Fin 1) e)
    (fun d => by match d with | ⟨0, _⟩ => rfl | ⟨1, _⟩ => rfl | ⟨2, _⟩ => rfl | ⟨3, _⟩ => rfl)).trans ?_
  rw [shapeCast_self]
  refine shapeCast_apply _ _ (ix4 (0 : Fin 1) r (0 : Fin 1) e) (ix2 r e) ?_
  rw [Shape.rowMajor_val_two, Shape.rowMajor_val_four]
  show r.val * 256 + e.val = ((0 * 32 + r.val) * 1 + 0) * 256 + e.val
  omega

/-- The printed index maps over the grid: the table's block and the output's block move together along the rows, and
    neither moves along any other axis. -/
theorem index_facts : ∀ t : Fin cfg0.N, win0_0.index t (0 : Fin 2) = win0_1.index t (1 : Fin 4)
    ∧ win0_0.index t (1 : Fin 2) = 0
    ∧ win0_1.index t (0 : Fin 4) = 0 ∧ win0_1.index t (2 : Fin 4) = 0 ∧ win0_1.index t (3 : Fin 4) = 0
    ∧ win0_1.index t (1 : Fin 4) ≤ 7 :=
  (by decide +kernel : ∀ t : Fin grid0.N, _)

/-- Every one of the eight row blocks is some point's. -/
theorem index_onto : ∀ q : Fin 8, ∃ t : Fin cfg0.N, win0_1.index t = ![0, q.val, 0, 0] :=
  (by decide +kernel : ∀ q : Fin 8, ∃ t : Fin grid0.N, win0_1.index t = ![0, q.val, 0, 0])

/-- WHAT POINT `t` WRITES BACK is block `t` of `tiled` of the table as the region finds it. -/
theorem flushed_eq (c : Dev nD) (t : Fin cfg0.N) :
    (dats m 0 c).flushed 1 t = ((cfg0.win 1).blk t).view.read (Elt F) (tiled (V m c main_arg1)) := by
  show (cfg0.win 1).cut (grid0.coords t) ((dats m 0 c).after 1 t) = _
  rw [after0_1]
  unfold out0_1
  rw [View.canon_unit_zero zero4]
  simp only [View.ld_unit_zero (S := S32x256) zero2]
  obtain ⟨e0, e1, e2, e3, e4, e5⟩ := index_facts t
  funext j
  obtain ⟨b, r, a, e, rfl⟩ : ∃ (b : Fin 64) (r : Fin 32) (a : Fin 8) (e : Fin 256), j = ix4 b r a e :=
    ⟨j 0, j 1, j 2, j 3, eq_ix4 j⟩
  show k0_pay1 (iblk m c 0 t) (ix4 b r a e) = tiled (V m c main_arg1) (((cfg0.win 1).blk t).view.emb (ix4 b r a e))
  refine (stored_apply (iblk m c 0 t) b r a e).trans ?_
  show V m c main_arg1 (((cfg0.win 0).blk t).view.emb (ix2 r e)) = _
  unfold tiled
  refine congrArg (V m c main_arg1) ?_
  funext d; apply Fin.ext
  match d with
  | ⟨0, _⟩ =>
    show win0_0.index t (0 : Fin 2) * 32 + 1 * r.val = win0_1.index t (1 : Fin 4) * 32 + 1 * r.val
    omega
  | ⟨1, _⟩ =>
    show win0_0.index t (1 : Fin 2) * 256 + 1 * e.val = win0_1.index t (3 : Fin 4) * 256 + 1 * e.val
    omega

/-- An index of the output is in point `t`'s block iff each coordinate is in the block's range on its axis. -/
theorem mem_block (t : Fin cfg0.N) (i : S64x256x8x256.Idx) :
    i ∈ ((cfg0.win 1).blk t).view.set ↔ ∀ a : Fin 4, win0_1.index t a * S64x32x8x256.size a ≤ (i a).val
      ∧ (i a).val < win0_1.index t a * S64x32x8x256.size a + S64x32x8x256.size a := by
  show i ∈ ((View.whole main_v0).slice (win0_1.rect t)).set ↔ _
  rw [View.set_slice_whole, Rect.mem_set_unit]
  exact Iff.rfl

/-- The eight blocks cover the output: row `R` of the second axis is in block `R / 32`. -/
theorem covered (i : S64x256x8x256.Idx) :
    ∃ t : Fin cfg0.N, (cfg0.win 1).flush t = true ∧ i ∈ ((cfg0.win 1).blk t).view.set := by
  have h0 : (i 0).val < 64 := (i 0).isLt
  have h1 : (i 1).val < 256 := (i 1).isLt
  have h2 : (i 2).val < 8 := (i 2).isLt
  have h3 : (i 3).val < 256 := (i 3).isLt
  obtain ⟨t, ht⟩ := index_onto ⟨(i 1).val / 32, by omega⟩
  have q0 : win0_1.index t (0 : Fin 4) = 0 := congrFun ht 0
  have q1 : win0_1.index t (1 : Fin 4) = (i 1).val / 32 := congrFun ht 1
  have q2 : win0_1.index t (2 : Fin 4) = 0 := congrFun ht 2
  have q3 : win0_1.index t (3 : Fin 4) = 0 := congrFun ht 3
  refine ⟨t, flush0_1 t, ?_⟩
  rw [mem_block]
  intro a
  match a with
  | ⟨0, _⟩ => show win0_1.index t (0 : Fin 4) * 64 ≤ (i 0).val ∧ (i 0).val < win0_1.index t (0 : Fin 4) * 64 + 64; omega
  | ⟨1, _⟩ => show win0_1.index t (1 : Fin 4) * 32 ≤ (i 1).val ∧ (i 1).val < win0_1.index t (1 : Fin 4) * 32 + 32; omega
  | ⟨2, _⟩ => show win0_1.index t (2 : Fin 4) * 8 ≤ (i 2).val ∧ (i 2).val < win0_1.index t (2 : Fin 4) * 8 + 8; omega
  | ⟨3, _⟩ => show win0_1.index t (3 : Fin 4) * 256 ≤ (i 3).val ∧ (i 3).val < win0_1.index t (3 : Fin 4) * 256 + 256; omega

/-- THE REGION'S OUTPUT ARRAY after the last point is `tiled` of the table as launched. -/
theorem output_eq (c : Dev nD) : (dats m 0 c).arrAt 1 cfg0.N = tiled (m ((c : Thread nD τ).loc main_arg1)) :=
  ((dats m 0 c).arrAt_eq_of_cover 1 (tiled (V m c main_arg1)) (fun t _ => flushed_eq m c t) covered).trans
    (congrArg tiled (V_main_arg1 m c))

end Cert.KernelIdeal.Tiles

end
-- ==== Proof.Spec.lean ====
/-
  The common value of the two programs, and the arithmetic of the reference's row index.

  Both programs fill a `[64, 2048, 256]` array from a `[512, 256]` table `E`: entry `(b, s, e)` is `E (s / 8, e)` —
  eight consecutive token positions share one table row, and every batch entry `b` holds the same rows. Only the first
  256 rows of the table are read. Nothing is computed on the values, so the function is stated for any element type.

  The reference obtains the row `s / 8` as a 32-bit word: the position `s` as a word, divided by 8 with the quotient
  rounded toward zero, corrected by one when the signs of dividend and divisor differ and the remainder is not zero
  (floor division), and then, were it negative, increased by the number of rows 512 (a negative index counts from the
  end). For `0 ≤ s < 2048` no correction and no wrap happens and the word read as a signed integer is `s / 8`.
-/
import Idealize.ShloMosaic.PureOps
import Idealize.ShloMosaic.Lib.ValueIdx

noncomputable section

namespace Cert.RowRepeat

open Idealize.ShloMosaic Idealize.ShloMosaic.ValueIdx

/-- The table row token position `s` reads: eight consecutive positions share a row. -/
def rowOf (s : Fin 2048) : Fin 512 := ⟨s.val / 8, by have := s.isLt; omega⟩

/-- THE RESULT: entry `(b, s, e)` is the table's entry `(s / 8, e)`, whatever the batch entry `b`. -/
def repeated {α : Type} (E : (⟨2, ![512, 256]⟩ : Shape).Idx → α) : (⟨3, ![64, 2048, 256]⟩ : Shape).Idx → α :=
  fun i => E (ix2 (rowOf ⟨(i 1).val, (i 1).isLt⟩) (⟨(i 2).val, (i 2).isLt⟩ : Fin 256))

theorem repeated_apply {α : Type} (E : (⟨2, ![512, 256]⟩ : Shape).Idx → α) (b : Fin 64) (s : Fin 2048) (e : Fin 256) :
    repeated E (ix3 b s e) = E (ix2 (rowOf s) e) := rfl

/-! ## The row index as the reference computes it -/

/-- The sign of a word as a word: 0, 1 or -1. -/
def signWord (x : BitVec 32) : BitVec 32 := if x = 0 then 0 else if x.msb then -1 else 1

/-- Floor division of a word by 8: the truncating quotient, less one where the signs of the dividend and of 8 differ
    and the remainder is not zero. -/
def floorDiv8 (x : BitVec 32) : BitVec 32 :=
  Scalar.select
    (IntOp.andi (IntOp.cmpi .ne (signWord x) (signWord 8#32)) (IntOp.cmpi .ne (IntOp.remsi .host x 8#32) 0#32))
    (IntOp.subi (IntOp.divsi .host x 8#32) 1#32) (IntOp.divsi .host x 8#32)

/-- A negative row index counts from the end of the 512 rows. -/
def wrap512 (d : BitVec 32) : BitVec 32 := Scalar.select (IntOp.cmpi .slt d 0#32) (IntOp.addi d 512#32) d

/-- For each of the 2048 positions the row index the reference computes, read as a signed integer, is `s / 8`: the
    position is not negative and 8 is positive, so the quotient is not corrected, and it is not negative, so it is not
    wrapped. Checked position by position. -/
theorem rowWord_toInt : ∀ s : Fin 2048, (wrap512 (floorDiv8 (BitVec.ofNat 32 s.val))).toInt = ((rowOf s).val : ℤ) := by
  decide +kernel

end Cert.RowRepeat

end
-- ==== Proof.KernelRun.lean ====
/-
  The kernel program's result: the region's output with its two middle axes merged is the common function of the table.

  After the region the program reshapes the `[64, 256, 8, 256]` output to `[64, 2048, 256]`. A reshape keeps the row-major
  position, so entry `(b, s, e)` of the result is entry `(b, s / 8, s % 8, e)` of the region's output, which is the
  table's `(s / 8, e)`. The run of the whole program is the generated frame run, read at the result buffer through the
  line after the region and at the two arguments, which nothing writes.
-/
import proofs.«171506_j40252433498315_2_alg».proof.Proof.KernelTiles
import proofs.«171506_j40252433498315_2_alg».proof.Proof.Spec
import Idealize.ShloMosaic.Lib.StableHlo.Run

noncomputable section

namespace Cert.KernelIdeal.Tiles

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.RowRepeat

variable {F : FTy → Type} [FloatOps F]
variable (m : (ℓ : Loc nD τ sig) → Buf (Elt F) ℓ) (ρ : Dev nD → PrngReg)

/-- Merging the row axis and the repeat axis of `tiled` gives the common function: position `s` of the merged axis is
    row `s / 8`, repeat `s % 8`. -/
theorem merged_eq {α : Type} (E : (⟨2, ![512, 256]⟩ : Shape).Idx → α) (h : S64x256x8x256.ShapeCasts S64x2048x256) :
    shapeCast S64x2048x256 (tiled E) h = repeated E := by
  funext i
  obtain ⟨b, s, e, rfl⟩ : ∃ (b : Fin 64) (s : Fin 2048) (e : Fin 256), i = ix3 b s e := ⟨i 0, i 1, i 2, eq_ix3 i⟩
  rw [repeated_apply]
  have hs := s.isLt
  refine (shapeCast_apply (tiled E) h (ix3 b s e)
    (ix4 b (⟨s.val / 8, by omega⟩ : Fin 256) (⟨s.val % 8, by omega⟩ : Fin 8) e) ?_).trans rfl
  rw [Shape.rowMajor_val_four, Shape.rowMajor_val_three]
  show ((b.val * 256 + s.val / 8) * 8 + s.val % 8) * 256 + e.val = (b.val * 2048 + s.val) * 256 + e.val
  omega

/-- THE PROGRAM'S RESULT: after the line that follows the region, the result buffer holds the common function of the
    table as launched. -/
theorem tail_eq (c : Dev nD) :
    Pipeline.afterTail₀ cfgs (dats m) 0 (V0 m) [hostOps1] c main_v1 = repeated (m ((c : Thread nD τ).loc main_arg1)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = tiled (m ((c : Thread nD τ).loc main_arg1)) :=
    (Pipeline.withArrays_arr spec0 launch0.win.arr_inj c _ _ 1).trans (output_eq m c)
  rw [hw]
  exact merged_eq _ _

/-- The run, read: every weakly fair execution of the program terminates with the result buffer at the common function
    of the table and both arguments as launched. -/
theorem run : θ_run defs (onTc (τ := τ) (main (F := F))) ⟨m, fun _ => 0, ρ⟩ fun r => ∀ c : Dev nD,
      r.2.mem ((c : Thread nD τ).loc main_v1) = repeated (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v1 (Pipeline.mem_restRefs_of main_v1 (by decide) (by decide))).trans (tail_eq m c),
       ((h c).2 main_arg0 (Pipeline.mem_restRefs_of main_arg0 (by decide) (by decide))).trans (W_main_arg0 m (dats m) c),
       ((h c).1 0).trans (((dats m 0 c).arrAt_in 0 rfl _).trans ((A_eq m c 0).trans (V_main_arg1 m c)))⟩)
    (run_main m ρ)

end Cert.KernelIdeal.Tiles

end
-- ==== Proof.RefRun.lean ====
/-
  The reference program as a straight line, and its run.

  The reference computes, for every token position `s` of the 2048, the row index `s // 8` (jnp's floor division, which
  lowers to a truncating quotient corrected by one where the signs differ and the remainder is not zero), wraps a
  negative index by the table's 512 rows, gathers that row of the table for each position and broadcasts the rows over
  the 64 batch entries. Its two outlined helpers (the floor division and the select inside it) are written out at their
  call site over the call's own buffers, so that the whole program is one list of host operations; every weakly fair
  execution then terminates with each buffer at the list's fold over the launch contents.
-/
import proofs.«171506_j40252433498315_2_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The program's thirty operations, in order: the positions `0 … 2047` and the divisor 8; the floor division's
    seventeen (the divisor converted and broadcast, the truncating quotient, the two signs and their comparison, the
    remainder and its comparison with zero, the conjunction, the quotient less one, the select between the two); the
    wrap of a negative index by 512; the index as a column; the gather of rows; the two broadcasts to the batch. -/
abbrev ops : List (HloOp τ sig (Elt F)) :=
  [ nullary main_v0 (iotaInDim S2048 32 0),
    nullary main_c (constantI S_ 32 8#32),
    TRef.unary (.of main_c) main_call0.v0 id,
    TRef.unary main_call0.v0 main_call0.v1 (broadcastInDim S2048 ![] bcast_S_S2048),
    TRef.binary (.of main_v0) main_call0.v1 main_call0.v2 Host.divsi,
    TRef.unary (.of main_v0) main_call0.v3 signi,
    TRef.unary main_call0.v0 main_call0.v4 signi,
    TRef.unary main_call0.v4 main_call0.v5 (broadcastInDim S2048 ![] bcast_S_S2048),
    TRef.binary main_call0.v3 main_call0.v5 main_call0.v6 (cmpi .ne),
    TRef.unary main_call0.v0 main_call0.v7 (broadcastInDim S2048 ![] bcast_S_S2048),
    TRef.binary (.of main_v0) main_call0.v7 main_call0.v8 Host.remsi,
    TRef.nullary main_call0.c (constantI S_ 32 0#32),
    TRef.unary main_call0.c main_call0.v9 (broadcastInDim S2048 ![] bcast_S_S2048),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S2048 ![] bcast_S_S2048),
    TRef.binary main_call0.v2 main_call0.v12 main_call0.v13 subi,
    TRef.ternary main_call0.v11 main_call0.v13 main_call0.v2 main_call0.call0.v0 select,
    nullary main_c_0 (constantI S_ 32 0#32),
    unary main_c_0 main_v2 (broadcastInDim S2048 ![] bcast_S_S2048 : (⟨S_, .i32⟩ : BufTy).Contents (Elt F) → (⟨S2048, .i32⟩ : BufTy).Contents (Elt F)),
    binary main_v1 main_v2 main_v3 (cmpi .slt : (⟨S2048, .i32⟩ : BufTy).Contents (Elt F) → (⟨S2048, .i32⟩ : BufTy).Contents (Elt F) → (⟨S2048, .i1⟩ : BufTy).Contents (Elt F)),
    nullary main_c_1 (constantI S_ 32 512#32),
    unary main_c_1 main_v4 (broadcastInDim S2048 ![] bcast_S_S2048 : (⟨S_, .i32⟩ : BufTy).Contents (Elt F) → (⟨S2048, .i32⟩ : BufTy).Contents (Elt F)),
    binary main_v1 main_v4 main_v5 (addi : (⟨S2048, .i32⟩ : BufTy).Contents (Elt F) → (⟨S2048, .i32⟩ : BufTy).Contents (Elt F) → (⟨S2048, .i32⟩ : BufTy).Contents (Elt F)),
    ternary main_v3 main_v5 main_v1 main_v6 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v6 main_v7 (broadcastInDim S2048x1 ![0] bcast_S2048_S2048x1_0 : (⟨S2048, .i32⟩ : BufTy).Contents (Elt F) → (⟨S2048x1, .i32⟩ : BufTy).Contents (Elt F)),
    binary main_arg1 main_v7 main_v8 ((fun x i => Host.gather gather_S512x256_S2048x1_S2048x256_1_0_n_n_0_1_1256 x i) : (⟨S512x256, .f32⟩ : BufTy).Contents (Elt F) → (⟨S2048x1, .i32⟩ : BufTy).Contents (Elt F) → (⟨S2048x256, .f32⟩ : BufTy).Contents (Elt F)),
    unary main_v8 main_v9 (broadcastInDim S1x2048x256 ![1, 2] bcast_S2048x256_S1x2048x256_1_2 : (⟨S2048x256, .f32⟩ : BufTy).Contents (Elt F) → (⟨S1x2048x256, .f32⟩ : BufTy).Contents (Elt F)),
    unary main_v9 main_v10 (broadcastInDim S64x2048x256 ![0, 1, 2] bcast_S1x2048x256_S64x2048x256_0_1_2 : (⟨S1x2048x256, .f32⟩ : BufTy).Contents (Elt F) → (⟨S64x2048x256, .f32⟩ : BufTy).Contents (Elt F)) ]

set_option maxRecDepth 1024 in
/-- The program is that straight line: the helpers' bodies unfolded at their calls, the sequencing reassociated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..⟩

/-- Every weakly fair execution of the program terminates, and every final state has each buffer at the fold of the
    thirty operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Straight

end
-- ==== Proof.LibRowIndex.lean ====
/-
  Rows indexed by data: a scatter-add of rows and a gather of rows, read at an index.

  `x.at[idx].add(upd)` over the rows of an `[R, C]` table (one row index per update row, carried as an `[N, 1]` array of
  words) is, at the ideal values, the table's entry plus the sum of the update rows whose index IS that row: the index
  word is read signed and NOT clamped, so a word outside `[0, R)` names no row and its update is dropped. The same
  for a flat `[R]` table of scalars. `x[idx]` over the rows of an `[R, C]` table reads row `min (toNat idx) (R - 1)`: the
  word read signed and CLAMPED into `[0, R - 1]`. The two meet where it matters: a word that names a row for the
  scatter names the same row for the gather (`clampRow_of_eq`).
-/
import Idealize.ShloMosaic.PureOps.Ideal
import Idealize.ShloMosaic.Lib.ValueIdx

noncomputable section

open scoped BigOperators

namespace Cert.RowIndex

open Idealize.ShloMosaic Idealize.ShloMosaic.ValueIdx

/-! ## The dimension numbers -/

/-- A scatter of `[N, C]` update rows into the rows of an `[R, C]` table, the row named by an `[N, 1]` array of words. -/
abbrev rowScatter (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

variable {R C N w : Nat}

section Scatter
variable (wf : ScatterDims.WF ⟨2, ![R, C]⟩ ⟨2, ![N, 1]⟩ ⟨2, ![N, C]⟩ [1] [0] [0] 1)
  (j : (⟨2, ![N, C]⟩ : Shape).Idx) (idx : IVec ⟨2, ![N, 1]⟩ w)

theorem rowScatter_start0 : (rowScatter R C N wf).start j idx 0 = (idx (ix2 (j 0) (0 : Fin 1))).toInt := by
  unfold ScatterDims.start
  rw [dif_pos (show (0 : Fin 2) ∈ (rowScatter R C N wf).scatterDimsToOperandDims from List.mem_singleton.mpr rfl)]
  have hsi : (rowScatter R C N wf).siIdx j ⟨List.idxOf (0 : Fin 2) (rowScatter R C N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 : (rowScatter R C N wf).start j idx 1 = 0 := by
  unfold ScatterDims.start
  rw [dif_neg (show ¬ (1 : Fin 2) ∈ (rowScatter R C N wf).scatterDimsToOperandDims from
    (by decide : ¬ (1 : Fin 2) ∈ ([0] : List (Fin 2))))]

theorem rowScatter_window0 : (rowScatter R C N wf).window j 0 = 0 := by
  unfold ScatterDims.window
  rw [dif_neg (show ¬ (0 : Fin 2) ∈ (rowScatter R C N wf).sKept from
    (by decide : ¬ (0 : Fin 2) ∈ ([1] : List (Fin 2))))]

theorem rowScatter_window1 : (rowScatter R C N wf).window j 1 = (j 1).val := by
  unfold ScatterDims.window
  rw [dif_pos (show (1 : Fin 2) ∈ (rowScatter R C N wf).sKept from
    (by decide : (1 : Fin 2) ∈ ([1] : List (Fin 2))))]
  rfl

/-- An update row lands on the table row its index word names, column for column; a word outside `[0, R)` lands nowhere. -/
theorem rowScatter_resultIdx?_eq_some_iff (i : (⟨2, ![R, C]⟩ : Shape).Idx) :
    (rowScatter R C N wf).resultIdx? j idx = some i
      ↔ (idx (ix2 (j 0) (0 : Fin 1))).toInt = ((i 0).val : ℤ) ∧ (j 1).val = (i 1).val := by
  have hs0 := rowScatter_start0 wf j idx
  have hs1 := rowScatter_start1 wf j idx
  have hw0 := rowScatter_window0 wf j
  have hw1 := rowScatter_window1 wf j
  have hi0 := idx2_lt0 i
  have hi1 := idx2_lt1 i
  have hj1 := idx2_lt1 j
  unfold ScatterDims.resultIdx?
  split
  · rename_i h
    rw [Option.some.injEq]
    constructor
    · intro e
      have e0 : ((rowScatter R C N wf).start j idx 0 + ((rowScatter R C N wf).window j 0 : ℤ)).toNat = (i 0).val :=
        congrArg (fun f : (⟨2, ![R, C]⟩ : Shape).Idx => (f 0).val) e
      have e1 : ((rowScatter R C N wf).start j idx 1 + ((rowScatter R C N wf).window j 1 : ℤ)).toNat = (i 1).val :=
        congrArg (fun f : (⟨2, ![R, C]⟩ : Shape).Idx => (f 1).val) e
      have h0 := (h 0).1
      rw [hs0, hw0] at e0 h0
      rw [hs1, hw1] at e1
      constructor <;> omega
    · rintro ⟨e0, e1⟩
      funext a
      refine Fin.ext ?_
      match a with
      | ⟨0, _⟩ =>
        show ((rowScatter R C N wf).start j idx 0 + ((rowScatter R C N wf).window j 0 : ℤ)).toNat = (i 0).val
        rw [hs0, hw0]; omega
      | ⟨1, _⟩ =>
        show ((rowScatter R C N wf).start j idx 1 + ((rowScatter R C N wf).window j 1 : ℤ)).toNat = (i 1).val
        rw [hs1, hw1]; omega
  · rename_i h
    constructor
    · intro e; cases e
    · rintro ⟨e0, e1⟩
      exfalso; apply h
      intro a
      match a with
      | ⟨0, _⟩ =>
        show 0 ≤ (rowScatter R C N wf).start j idx 0 + ((rowScatter R C N wf).window j 0 : ℤ)
          ∧ (rowScatter R C N wf).start j idx 0 + ((rowScatter R C N wf).window j 0 : ℤ) < (R : ℤ)
        rw [hs0, hw0]; omega
      | ⟨1, _⟩ =>
        show 0 ≤ (rowScatter R C N wf).start j idx 1 + ((rowScatter R C N wf).window j 1 : ℤ)
          ∧ (rowScatter R C N wf).start j idx 1 + ((rowScatter R C N wf).window j 1 : ℤ) < (C : ℤ)
        rw [hs1, hw1]; omega

/-- THE ROW SCATTER-ADD READ AT `(g, c)`, at the ideal values: the table's entry plus the sum, over the update rows whose
    index word is `g`, of their entry in column `c`. -/
theorem rowScatterAdd_apply (x : FVec Ideal ⟨2, ![R, C]⟩ .f32) (upd : FVec Ideal ⟨2, ![N, C]⟩ .f32) (g : Fin R) (c : Fin C) :
    Host.scatterAdd (F := Ideal) (rowScatter R C N wf) x idx upd (ix2 g c)
      = x (ix2 g c) + ∑ n ∈ Finset.univ.filter (fun n : Fin N => (idx (ix2 n (0 : Fin 1))).toInt = (g.val : ℤ)), upd (ix2 n c) := by
  show x (ix2 g c) + ∑ j ∈ Finset.univ.filter (fun j => (rowScatter R C N wf).resultIdx? j idx = some (ix2 g c)), upd j = _
  congr 1
  rw [Finset.sum_filter, sum_idx2, Finset.sum_filter]
  refine Finset.sum_congr rfl fun n _ => ?_
  by_cases hn : (idx (ix2 n (0 : Fin 1))).toInt = (g.val : ℤ)
  · rw [if_pos hn]
    rw [Finset.sum_eq_single c]
    · rw [if_pos ((rowScatter_resultIdx?_eq_some_iff wf (ix2 n c) idx (ix2 g c)).2 ⟨hn, rfl⟩)]
    · intro b _ hb
      rw [if_neg]
      intro h
      exact hb (Fin.ext ((rowScatter_resultIdx?_eq_some_iff wf (ix2 n b) idx (ix2 g c)).1 h).2)
    · intro h; exact absurd (Finset.mem_univ c) h
  · rw [if_neg hn]
    refine Finset.sum_eq_zero fun b _ => ?_
    rw [if_neg]
    intro h
    exact hn ((rowScatter_resultIdx?_eq_some_iff wf (ix2 n b) idx (ix2 g c)).1 h).1

end Scatter

/-! ## The flat table: one scalar per row -/

/-- A scatter of `[N]` scalars into an `[R]` table, the entry named by an `[N, 1]` array of words. -/
abbrev flatScatter (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

section Flat
variable (wf : ScatterDims.WF ⟨1, ![R]⟩ ⟨2, ![N, 1]⟩ ⟨1, ![N]⟩ [] [0] [0] 1)
  (j : (⟨1, ![N]⟩ : Shape).Idx) (idx : IVec ⟨2, ![N, 1]⟩ w)

theorem flatScatter_start0 : (flatScatter R N wf).start j idx 0 = (idx (ix2 (j 0) (0 : Fin 1))).toInt := by
  unfold ScatterDims.start
  rw [dif_pos (show (0 : Fin 1) ∈ (flatScatter R N wf).scatterDimsToOperandDims from List.mem_singleton.mpr rfl)]
  have hsi : (flatScatter R N wf).siIdx j ⟨List.idxOf (0 : Fin 1) (flatScatter R N wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 : (flatScatter R N wf).window j 0 = 0 := by
  unfold ScatterDims.window
  rw [dif_neg (show ¬ (0 : Fin 1) ∈ (flatScatter R N wf).sKept from
    (by decide : ¬ (0 : Fin 1) ∈ ([] : List (Fin 1))))]

/-- A scalar update lands on the entry its index word names; a word outside `[0, R)` lands nowhere. -/
theorem flatScatter_resultIdx?_eq_some_iff (i : (⟨1, ![R]⟩ : Shape).Idx) :
    (flatScatter R N wf).resultIdx? j idx = some i ↔ (idx (ix2 (j 0) (0 : Fin 1))).toInt = ((i 0).val : ℤ) := by
  have hs0 := flatScatter_start0 wf j idx
  have hw0 := flatScatter_window0 wf j
  have hi0 : (i 0).val < R := (i 0).isLt
  unfold ScatterDims.resultIdx?
  split
  · rename_i h
    rw [Option.some.injEq]
    constructor
    · intro e
      have e0 : ((flatScatter R N wf).start j idx 0 + ((flatScatter R N wf).window j 0 : ℤ)).toNat = (i 0).val :=
        congrArg (fun f : (⟨1, ![R]⟩ : Shape).Idx => (f 0).val) e
      have h0 := (h 0).1
      rw [hs0, hw0] at e0 h0
      omega
    · intro e0
      funext a
      refine Fin.ext ?_
      match a with
      | ⟨0, _⟩ =>
        show ((flatScatter R N wf).start j idx 0 + ((flatScatter R N wf).window j 0 : ℤ)).toNat = (i 0).val
        rw [hs0, hw0]; omega
  · rename_i h
    constructor
    · intro e; cases e
    · intro e0
      exfalso; apply h
      intro a
      match a with
      | ⟨0, _⟩ =>
        show 0 ≤ (flatScatter R N wf).start j idx 0 + ((flatScatter R N wf).window j 0 : ℤ)
          ∧ (flatScatter R N wf).start j idx 0 + ((flatScatter R N wf).window j 0 : ℤ) < (R : ℤ)
        rw [hs0, hw0]; omega

/-- THE FLAT SCATTER-ADD READ AT `g`, at the ideal values: the table's entry plus the sum of the updates whose index word is `g`. -/
theorem flatScatterAdd_apply (x : FVec Ideal ⟨1, ![R]⟩ .f32) (upd : FVec Ideal ⟨1, ![N]⟩ .f32) (g : Fin R) :
    Host.scatterAdd (F := Ideal) (flatScatter R N wf) x idx upd (ix1 g)
      = x (ix1 g) + ∑ n ∈ Finset.univ.filter (fun n : Fin N => (idx (ix2 n (0 : Fin 1))).toInt = (g.val : ℤ)), upd (ix1 n) := by
  show x (ix1 g) + ∑ j ∈ Finset.univ.filter (fun j => (flatScatter R N wf).resultIdx? j idx = some (ix1 g)), upd j = _
  congr 1
  refine Finset.sum_bij (fun (j : (⟨1, ![N]⟩ : Shape).Idx) _ => (j 0 : Fin N)) ?_ ?_ ?_ ?_
  · intro j hj
    exact Finset.mem_filter.2 ⟨Finset.mem_univ _,
      (flatScatter_resultIdx?_eq_some_iff wf j idx (ix1 g)).1 (Finset.mem_filter.1 hj).2⟩
  · intro a _ b _ hab
    rw [eq_ix1 a, eq_ix1 b]
    exact congrArg ix1 hab
  · intro n hn
    exact ⟨ix1 n, Finset.mem_filter.2 ⟨Finset.mem_univ _,
      (flatScatter_resultIdx?_eq_some_iff wf (ix1 n) idx (ix1 g)).2 (Finset.mem_filter.1 hn).2⟩, rfl⟩
  · intro j _
    exact congrArg upd (eq_ix1 j)

end Flat

/-! ## The row gather -/

/-- A gather of whole rows of an `[R, C]` table, the row named by an `[N, 1]` array of words. -/
abbrev rowGather (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row a word names for a gather from `R` rows: read signed, clamped into `[0, R - 1]`. -/
def clampRow (R : Nat) (hR : 0 < R) {w : Nat} (b : BitVec w) : Fin R := ⟨min b.toInt.toNat (R - 1), by omega⟩

/-- A word that names a row for the scatter (its signed value IS the row) names the same row for the gather. -/
theorem clampRow_of_eq (hR : 0 < R) (b : BitVec w) (g : Fin R) (h : b.toInt = (g.val : ℤ)) : clampRow R hR b = g := by
  refine Fin.ext ?_
  show min b.toInt.toNat (R - 1) = g.val
  have := g.isLt
  omega

/-- THE ROW GATHER READ AT `(n, c)`: the table at row `clampRow` of the `n`-th index word, column `c`. -/
theorem rowGather_apply {α : Type} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (n : Fin N) (c : Fin C) :
    Host.gather (rowGather R C N wf) x idx (ix2 n c) = x (ix2 (clampRow R hR (idx (ix2 n (0 : Fin 1)))) c) := by
  unfold Host.gather
  congr 1
  funext a
  refine Fin.ext ?_
  match a with
  | ⟨0, _⟩ =>
    show (rowGather R C N wf).start (ix2 n c) idx 0 + (rowGather R C N wf).batchCoord (ix2 n c) 0
      + (rowGather R C N wf).offCoord (ix2 n c) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C N wf).startIndexMap from List.mem_singleton.mpr rfl)]
    have hsi : (rowGather R C N wf).siIdx (ix2 n c) ⟨List.idxOf (0 : Fin 2) (rowGather R C N wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowGather R C N wf).start (ix2 n c) idx 1 + (rowGather R C N wf).batchCoord (ix2 n c) 1
      + (rowGather R C N wf).offCoord (ix2 n c) 1 = c.val
    rw [GatherDims.batchCoord_eq_zero _ _ _ List.not_mem_nil]
    unfold GatherDims.start
    rw [dif_neg (show ¬ (1 : Fin 2) ∈ (rowGather R C N wf).startIndexMap from
      (by decide : ¬ (1 : Fin 2) ∈ ([0] : List (Fin 2))))]
    unfold GatherDims.offCoord
    rw [dif_pos (show (1 : Fin 2) ∈ (rowGather R C N wf).sKept from
      (by decide : (1 : Fin 2) ∈ ([1] : List (Fin 2))))]
    simp only [Nat.zero_add, Nat.add_zero]
    rfl

/-! ## Counting on the extended reals -/

/-- A sum of copies of one extended real is the count times it — at the infinities too, and for the empty sum (`0 · v = 0`):
    a product by a nonnegative factor distributes over a sum of nonnegative terms, which is all the induction needs. -/
theorem sum_const_eq_card_mul {ι : Type} [DecidableEq ι] (s : Finset ι) (v : EReal) :
    ∑ _n ∈ s, v = (∑ _n ∈ s, (1 : EReal)) * v := by
  induction s using Finset.induction_on with
  | empty => simp
  | insert a s ha ih =>
    rw [Finset.sum_insert ha, Finset.sum_insert ha, ih,
      EReal.right_distrib_of_nonneg zero_le_one (Finset.sum_nonneg fun _ _ => zero_le_one), one_mul]

end Cert.RowIndex

end
-- ==== Proof.RefRead.lean ====
/-
  What the reference computes: its result array is the common function of the table.

  Read back along the thirty operations, the result buffer holds the table's rows gathered at the row-index words and
  broadcast over the batch. At entry `(b, s, e)` the two broadcasts drop the batch coordinate, the gather reads the
  table at the row the `s`-th word names (read signed and clamped into the table's rows) and column `e`, and that
  word, read signed, is `s / 8`: a row of the table, so the clamp does nothing.
-/
import proofs.«171506_j40252433498315_2_alg».proof.Proof.RefRun
import proofs.«171506_j40252433498315_2_alg».proof.Proof.Spec
import proofs.«171506_j40252433498315_2_alg».proof.Proof.LibRowIndex
import Idealize.ShloMosaic.Lib.Pipeline.Value

noncomputable section

namespace Cert.ReferenceIdeal.Straight

open Cert.ReferenceIdeal Cert.ReferenceIdeal.Gen Idealize.ShloMosaic Idealize.ShloMosaic.TcCoe Idealize.SL.Sem Idealize.ShloMosaic.StableHlo
open Idealize.ShloMosaic.ValueIdx Cert.RowRepeat Cert.RowIndex

variable {F : FTy → Type} [FloatOps F]

/-- The row index of every token position, as the program computes it: the positions floor-divided by 8, a negative
    quotient wrapped by 512. -/
def rowWords : IVec S2048 32 :=
  let pos : IVec S2048 32 := iotaInDim S2048 32 0
  let eight : IVec S2048 32 := broadcastInDim S2048 ![] bcast_S_S2048 (constantI S_ 32 8#32)
  let quot : IVec S2048 32 := Host.divsi pos eight
  let floor : IVec S2048 32 :=
    select
      (andi (cmpi .ne (signi pos) (broadcastInDim S2048 ![] bcast_S_S2048 (signi (constantI S_ 32 8#32))))
        (cmpi .ne (Host.remsi pos eight) (broadcastInDim S2048 ![] bcast_S_S2048 (constantI S_ 32 0#32))))
      (subi quot (broadcastInDim S2048 ![] bcast_S_S2048 (constantI S_ 32 1#32))) quot
  select (cmpi .slt floor (broadcastInDim S2048 ![] bcast_S_S2048 (constantI S_ 32 0#32)))
    (addi floor (broadcastInDim S2048 ![] bcast_S_S2048 (constantI S_ 32 512#32))) floor

/-- The program's result as a function of the table: the rows gathered at the row words, broadcast over the batch. -/
def result (E : (⟨S512x256, .f32⟩ : BufTy).Contents (Elt F)) : (⟨S64x2048x256, .f32⟩ : BufTy).Contents (Elt F) :=
  broadcastInDim S64x2048x256 ![0, 1, 2] bcast_S1x2048x256_S64x2048x256_0_1_2
    (broadcastInDim S1x2048x256 ![1, 2] bcast_S2048x256_S1x2048x256_1_2
      (Host.gather gather_S512x256_S2048x1_S2048x256_1_0_n_n_0_1_1256 E
        (broadcastInDim S2048x1 ![0] bcast_S2048_S2048x1_0 rowWords)))

/-- After the thirty operations the result buffer holds `result` of the table as launched. -/
theorem after_result (V : Valuation τ sig (Elt F)) :
    after ops V (main_v10 : DevRef τ sig) = result (V (main_arg1 : DevRef τ sig)) := by
  after_results_simp
  rfl

/-- No operation writes an argument. -/
theorem after_arg0 (V : Valuation τ sig (Elt F)) : after ops V (main_arg0 : DevRef τ sig) = V (main_arg0 : DevRef τ sig) := by
  after_results_simp
theorem after_arg1 (V : Valuation τ sig (Elt F)) : after ops V (main_arg1 : DevRef τ sig) = V (main_arg1 : DevRef τ sig) := by
  after_results_simp

/-- The `s`-th row word is the floor division and wrap of the position `s` as a word. -/
theorem rowWords_apply (s : Fin 2048) : rowWords (ix1 s) = wrap512 (floorDiv8 (BitVec.ofNat 32 s.val)) := rfl

/-- THE REFERENCE'S RESULT IS THE COMMON FUNCTION of the table: entry `(b, s, e)` is the table's `(s / 8, e)`. -/
theorem result_eq (E : (⟨S512x256, .f32⟩ : BufTy).Contents (Elt F)) : result E = repeated E := by
  funext i
  obtain ⟨b, s, e, rfl⟩ : ∃ (b : Fin 64) (s : Fin 2048) (e : Fin 256), i = ix3 b s e := ⟨i 0, i 1, i 2, eq_ix3 i⟩
  rw [repeated_apply]
  unfold result
  refine (broadcastInDim_apply _ _ _ (ix3 b s e) (ix3 (0 : Fin 1) s e)
    (fun a => by match a with | ⟨0, _⟩ => rfl | ⟨1, _⟩ => rfl | ⟨2, _⟩ => rfl)).trans ?_
  refine (broadcastInDim_apply _ _ _ (ix3 (0 : Fin 1) s e) (ix2 s e)
    (fun a => by match a with | ⟨0, _⟩ => rfl | ⟨1, _⟩ => rfl)).trans ?_
  refine (rowGather_apply (R := 512) (C := 256) (N := 2048) (by decide)
    gather_S512x256_S2048x1_S2048x256_1_0_n_n_0_1_1256_wf E _ s e).trans ?_
  refine congrArg (fun r => E (ix2 r e)) ?_
  refine clampRow_of_eq _ _ (rowOf s) ?_
  refine (congrArg BitVec.toInt ((broadcastInDim_apply _ _ _ (ix2 s (0 : Fin 1)) (ix1 s)
    (fun a => by match a with | ⟨0, _⟩ => rfl)).trans (rowWords_apply s))).trans (rowWord_toInt s)

/-- The run, read: every weakly fair execution of the reference terminates with the result buffer at the common function
    of the table and both arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = repeated (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v10).trans ((after_result _).trans (result_eq _)),
       (h c main_arg0).trans (after_arg0 _),
       (h c main_arg1).trans (after_arg1 _)⟩)
    (run_main m ρ)

end Cert.ReferenceIdeal.Straight

end
-- ==== Proof.lean ====
/-
  The proof of `Cert.Claim`: the kernel program and the reference compute the same array.

  The kernel program fills a `[64, 256, 8, 256]` array with the table's first 256 rows, each repeated eight times, for every
  batch entry, and merges the row and repeat axes; the reference gathers row `s // 8` of the table for each of the 2048
  token positions `s` and broadcasts over the batch. Both results are the function `(b, s, e) ↦ E (s / 8, e)` of the table
  `E` (`Cert.RowRepeat.repeated`): no arithmetic is done on the values, so the two results are equal for every table,
  finite or not, and the precondition is never opened. The three frames are the generated frame runs of the two kernel
  programs and the reference's run with its result dropped; the idealization rewrote nothing.
-/
import proofs.«171506_j40252433498315_2_alg».proof.Defs
import proofs.«171506_j40252433498315_2_alg».proof.Proof.Gen.Kernel
import proofs.«171506_j40252433498315_2_alg».proof.Proof.Gen.Kernel.Skeleton
import proofs.«171506_j40252433498315_2_alg».proof.Proof.Gen.Kernel.Launch
import proofs.«171506_j40252433498315_2_alg».proof.Proof.Gen.Kernel.Points
import proofs.«171506_j40252433498315_2_alg».proof.Proof.Gen.Kernel.Frame
import proofs.«171506_j40252433498315_2_alg».proof.Proof.Gen.KernelIdeal
import proofs.«171506_j40252433498315_2_alg».proof.Proof.Gen.KernelIdeal.Skeleton
import proofs.«171506_j40252433498315_2_alg».proof.Proof.Gen.KernelIdeal.Launch
import proofs.«171506_j40252433498315_2_alg».proof.Proof.Gen.KernelIdeal.Points
import proofs.«171506_j40252433498315_2_alg».proof.Proof.Gen.KernelIdeal.Frame
import proofs.«171506_j40252433498315_2_alg».proof.Proof.Gen.ReferenceIdeal
import proofs.«171506_j40252433498315_2_alg».proof.Proof.Gen.Pre_finite_inputs
import proofs.«171506_j40252433498315_2_alg».proof.Proof.KernelRun
import proofs.«171506_j40252433498315_2_alg».proof.Proof.RefRead
import Idealize.ShloMosaic.Adequacy
import Idealize.ShloMosaic.Init

noncomputable section

namespace Cert.Proof

open Idealize.ShloMosaic Idealize.SL.Sem Cert.RowRepeat

/-- The word-level kernel program runs and leaves its arguments as launched. -/
theorem frame_kernel : Cert.frame_Kernel := fun m ρ _ => Cert.Kernel.Gen.frame m ρ

/-- So does the idealized kernel program. -/
theorem frame_ideal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Straight.run (F := Ideal) m ρ)

/-- The idealization rewrote no operation of the kernel program. -/
theorem preserves : Cert.preserves_Kernel_KernelIdeal := trivial

/-- From memories agreeing on the arguments the two idealized programs end with the same result: each is the common
    function of its own table, and the tables agree. -/
theorem algebraic : Cert.algebraic_KernelIdeal_ReferenceIdeal := by
  intro m ρ m' ρ' _ hagree
  refine ⟨fun c => repeated (m ((c.tc : Thread Cert.KernelIdeal.nD Cert.KernelIdeal.τ).loc Cert.KernelIdeal.main_arg1)),
    Cert.KernelIdeal.Tiles.run (F := Ideal) m ρ, ?_⟩
  refine (θ_run Cert.ReferenceIdeal.defs _ _).mono (fun _ h c => ⟨(h c).1.trans ?_, (h c).2⟩)
    (Cert.ReferenceIdeal.Straight.run (F := Ideal) m' ρ')
  rw [(hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
